-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x64 : Shape := ⟨2, ![2048, 64]⟩
abbrev S512x64 : Shape := ⟨2, ![512, 64]⟩
abbrev S_ : Shape := ⟨0, ![]⟩

class Facts : Prop where
  bcast_S_S2048x64 : S_.BroadcastsInDim S2048x64 (![] : Fin 0 → Fin S2048x64.rank)
  reducesTo_S2048x64_S_d0_1 : S2048x64.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_

variable [Facts]

def fn {F : FTy → Type} [FloatOps F] (main_arg0 : FVec F S2048x64 .f32) (main_arg1 : FVec F S512x64 .f32) : IVec S_ 1 :=
  let main_v0 : FVec F S2048x64 .f32 := Host.absf main_arg0
  let main_cst : FVec F S_ .f32 := constant S_ .f32 0x7F800000#32
  let main_v1 : FVec F S2048x64 .f32 := broadcastInDim S2048x64 ![] bcast_S_S2048x64 main_cst
  let main_v2 : IVec S2048x64 1 := cmpf .olt main_v0 main_v1
  let main_c : IVec S_ 1 := constantI S_ 1 1#1
  let main_v3 : IVec S_ 1 := (fun x v => Host.reduce IntOp.andi x v reducesTo_S2048x64_S_d0_1 h_S_) main_v2 main_c
  let main_v4 : FVec F S512x64 .f32 := Host.absf main_arg1
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  main_v8
-- ==== Kernel.lean ====
abbrev S2048x64 : Shape := ⟨2, ![2048, 64]⟩
abbrev S512x64 : Shape := ⟨2, ![512, 64]⟩
abbrev S512x2048 : Shape := ⟨2, ![512, 2048]⟩
abbrev S1024x64 : Shape := ⟨2, ![1024, 64]⟩
abbrev S512x1024 : Shape := ⟨2, ![512, 1024]⟩
abbrev S1024 : Shape := ⟨1, ![1024]⟩
abbrev S512 : Shape := ⟨1, ![512]⟩
abbrev S512x1 : Shape := ⟨2, ![512, 1]⟩
abbrev S512x66 : Shape := ⟨2, ![512, 66]⟩
abbrev S1024x1 : Shape := ⟨2, ![1024, 1]⟩
abbrev S1024x66 : Shape := ⟨2, ![1024, 66]⟩
abbrev S1x1024 : Shape := ⟨2, ![1, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x64, .f32⟩
  | .hbm, ⟨1, _⟩ => ⟨S512x64, .f32⟩
  | .hbm, ⟨2, _⟩ => ⟨S512x2048, .f32⟩
  | .local _ .vmem, ⟨0, _⟩ => ⟨S1024x64, .f32⟩
  | .local _ .vmem, ⟨1, _⟩ => ⟨S1024x64, .f32⟩
  | .local _ .vmem, ⟨2, _⟩ => ⟨S512x64, .f32⟩
  | .local _ .vmem, ⟨3, _⟩ => ⟨S512x1024, .f32⟩
  | .local _ .vmem, ⟨4, _⟩ => ⟨S512x1024, .f32⟩
  | _, _ => ⟨S2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1024x64_S1024x64_0_0 : ∀ a, (![0, 0] : Fin 2 → Nat) a + S1024x64.size a ≤ S1024x64.size a
  h_S1024x64 : 0 < S1024x64.numel
  inb_S512x64_S512x64_0_0 : ∀ a, (![0, 0] : Fin 2 → Nat) a + S512x64.size a ≤ S512x64.size a
  h_S512x64 : 0 < S512x64.numel
  reduces_S1024x64_S1024 : S1024x64.Reduces [1] S1024
  reduces_S512x64_S512 : S512x64.Reduces [1] S512
  shapeCasts_S512_S512x1 : S512.ShapeCasts S512x1
  concatenates_S512x64_S512x1_S512x1_S512x66_d1 : Shape.Concatenates [S512x64, S512x1, S512x1] S512x66 1
  shapeCasts_S1024_S1024x1 : S1024.ShapeCasts S1024x1
  concatenates_S1024x64_S1024x1_S1024x1_S1024x66_d1 : Shape.Concatenates [S1024x64, S1024x1, S1024x1] S1024x66 1
  reduces_S512x1024_S1024 : S512x1024.Reduces [0] S1024
  shapeCasts_S1024_S1x1024 : S1024.ShapeCasts S1x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  dot_S512x66_S1024x66_S512x1024_1_1_0_0_n_n_wf : DotDims.WF S512x66 S1024x66 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S2048x64.size a
  hwx0_0 : ∀ i : grid0.Coords, EltTy.bits .f32 = 32 ∨ (Rect.block (s := S2048x64) S1024x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S512x2048.size a
  hwx0_2 : ∀ i : grid0.Coords, EltTy.bits .f32 = 32 ∨ (Rect.block (s := S512x2048) S512x1024.size (cc0_transform_2 i) (hinb0_2 i)).WholeWords (EltTy.packing .f32)

variable [Facts₀]

def dot_S512x66_S1024x66_S512x1024_1_1_0_0_n_n : DotDims S512x66 S1024x66 S512x1024 where
  lhsContracting := [1]
  rhsContracting := [1]
  lhsNonContracting := [0]
  rhsNonContracting := [0]
  lhsBatch := []
  rhsBatch := []
  wf := dot_S512x66_S1024x66_S512x1024_1_1_0_0_n_n_wf

abbrev win0_0 : Pipeline.Window sig grid0 :=
  Pipeline.Window.ofSpec (Memref.whole main_arg0) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2048x64 : Shape := ⟨2, ![2048, 64]⟩
abbrev S512x64 : Shape := ⟨2, ![512, 64]⟩
abbrev S2048x1x64 : Shape := ⟨3, ![2048, 1, 64]⟩
abbrev S1x512x64 : Shape := ⟨3, ![1, 512, 64]⟩
abbrev S2048x512x64 : Shape := ⟨3, ![2048, 512, 64]⟩
abbrev S_ : Shape := ⟨0, ![]⟩
abbrev S2048x512 : Shape := ⟨2, ![2048, 512]⟩
abbrev S512x2048 : Shape := ⟨2, ![512, 2048]⟩
abbrev S2048 : Shape := ⟨1, ![2048]⟩
abbrev S1x2048 : Shape := ⟨2, ![1, 2048]⟩

abbrev nBuf : Space → Nat
  | .hbm => 31
  | .vmem => 0
  | .smem => 0
  | _ => 0

abbrev bufTy : (tb : Table) → Fin (tcTables nBuf tb) → BufTy
  | .hbm, ⟨0, _⟩ => ⟨S2048x64, .f32⟩
  | .hbm, ⟨1, _⟩ => ⟨S512x64, .f32⟩
  | .hbm, ⟨2, _⟩ => ⟨S2048x1x64, .f32⟩
  | .hbm, ⟨3, _⟩ => ⟨S1x512x64, .f32⟩
  | .hbm, ⟨4, _⟩ => ⟨S2048x512x64, .f32⟩
  | .hbm, ⟨5, _⟩ => ⟨S2048x512x64, .f32⟩
  | .hbm, ⟨6, _⟩ => ⟨S2048x512x64, .f32⟩
  | .hbm, ⟨7, _⟩ => ⟨S2048x512x64, .f32⟩
  | .hbm, ⟨8, _⟩ => ⟨S_, .f32⟩
  | .hbm, ⟨9, _⟩ => ⟨S2048x512, .f32⟩
  | .hbm, ⟨10, _⟩ => ⟨S_, .f32⟩
  | .hbm, ⟨11, _⟩ => ⟨S2048x512, .f32⟩
  | .hbm, ⟨12, _⟩ => ⟨S2048x512, .f32⟩
  | .hbm, ⟨13, _⟩ => ⟨S_, .f32⟩
  | .hbm, ⟨14, _⟩ => ⟨S2048x512, .f32⟩
  | .hbm, ⟨15, _⟩ => ⟨S2048x512, .f32⟩
  | .hbm, ⟨16, _⟩ => ⟨S_, .f32⟩
  | .hbm, ⟨17, _⟩ => ⟨S2048x512, .f32⟩
  | .hbm, ⟨18, _⟩ => ⟨S2048x512, .f32⟩
  | .hbm, ⟨19, _⟩ => ⟨S_, .f32⟩
  | .hbm, ⟨20, _⟩ => ⟨S2048x512, .f32⟩
  | .hbm, ⟨21, _⟩ => ⟨S2048x512, .f32⟩
  | .hbm, ⟨22, _⟩ => ⟨S_, .f32⟩
  | .hbm, ⟨23, _⟩ => ⟨S2048x512, .f32⟩
  | .hbm, ⟨24, _⟩ => ⟨S2048x512, .f32⟩
  | .hbm, ⟨25, _⟩ => ⟨S512x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S512x2048, .f32⟩
  | .hbm, ⟨30, _⟩ => ⟨S512x2048, .f32⟩
  | _, _ => ⟨S2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]

class Facts₀ : Prop where
  bcast_S2048x64_S2048x1x64_0_2 : S2048x64.BroadcastsInDim S2048x1x64 (![0, 2] : Fin 2 → Fin S2048x1x64.rank)
  bcast_S512x64_S1x512x64_1_2 : S512x64.BroadcastsInDim S1x512x64 (![1, 2] : Fin 2 → Fin S1x512x64.rank)
  bcast_S2048x1x64_S2048x512x64_0_1_2 : S2048x1x64.BroadcastsInDim S2048x512x64 (![0, 1, 2] : Fin 3 → Fin S2048x512x64.rank)
  bcast_S1x512x64_S2048x512x64_0_1_2 : S1x512x64.BroadcastsInDim S2048x512x64 (![0, 1, 2] : Fin 3 → Fin S2048x512x64.rank)
  reducesTo_S2048x512x64_S2048x512_d2 : S2048x512x64.ReducesTo [2] S2048x512
  h_S_ : 0 < S_.numel
  bcast_S_S2048x512 : S_.BroadcastsInDim S2048x512 (![] : Fin 0 → Fin S2048x512.rank)
  transposes_S2048x512_S512x2048_1_0 : S2048x512.Transposes [1, 0] S512x2048
  reducesTo_S2048x512_S2048_d1 : S2048x512.ReducesTo [1] S2048
  bcast_S2048_S1x2048_1 : S2048.BroadcastsInDim S1x2048 (![1] : Fin 1 → Fin S1x2048.rank)
  bcast_S1x2048_S512x2048_0_1 : S1x2048.BroadcastsInDim S512x2048 (![0, 1] : Fin 2 → Fin S512x2048.rank)

variable [Facts₀]

class Facts : Prop extends Facts₀ where

variable [Facts]
-- ==== Proof.LibRowOps.lean ====
/-
  Two-dimensional vector operations read at one index, on the extended reals.

  A kernel body that projects, normalises and contracts rows is a composition of a few operations on
  [a, b] vectors.  Each lemma below reads one of them at the index (r, c), with both coordinates explicit:
  a matrix product into a zero accumulator is the sum over the shared axis; a sum or a maximum along the
  second axis is the sum or the fold of `max` over that row; a length-a vector viewed as an [a, 1] column, the
  column repeated along a second axis, and a transpose only move coordinates.
-/
import Idealize.ShloMosaic.PureOps.Ideal.Laws
import Idealize.ShloMosaic.Lib.ValueIdx
import Idealize.ShloMosaic.Lib.Pipeline.Value

noncomputable section

namespace Cert.RowOps

open Idealize.ShloMosaic Idealize.ShloMosaic.ValueIdx

/-! ## A plain matrix product -/

/-- The dimension numbers of a plain `[M, K] × [K, N]` product: contract the left operand's second axis with the
    right operand's first, no batch axis. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Plain

variable {M K N : Nat} {d : DotDims ⟨2, ![M, K]⟩ ⟨2, ![K, N]⟩ ⟨2, ![M, N]⟩}

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq h => by subst h; rfl

theorem contr_rank (hd : IsPlain d) : d.contr.rank = 1 := by
  rw [d.rank_contr, hd.lc]; rfl

theorem contr_size (hd : IsPlain d) : d.contr.size ⟨0, by rw [contr_rank hd]; exact Nat.one_pos⟩ = K := by
  rw [d.size_contr 0 (by rw [hd.lc]; exact Nat.one_pos)]
  simp only [hd.lc, List.getElem_cons_zero]
  rfl

/-- The left operand's row coordinate is the result's row coordinate. -/
theorem lhsIdx_row (hd : IsPlain d) (j : (⟨2, ![M, N]⟩ : Shape).Idx) (k : d.contr.Idx) :
    (d.lhsIdx j k 0).val = (j 0).val := by
  unfold DotDims.lhsIdx
  rw [dif_neg (by rw [hd.lb]; exact List.not_mem_nil), dif_pos (by rw [hd.ln]; exact List.mem_singleton.mpr rfl)]
  simp only [Fin.val_cast]
  exact val_congr j _ _ _ _ (by simp [hd.lb, hd.ln])

/-- The right operand's column coordinate is the result's column coordinate. -/
theorem rhsIdx_col (hd : IsPlain d) (j : (⟨2, ![M, N]⟩ : Shape).Idx) (k : d.contr.Idx) :
    (d.rhsIdx j k 1).val = (j 1).val := by
  unfold DotDims.rhsIdx
  rw [dif_neg (by rw [hd.rb]; exact List.not_mem_nil), dif_pos (by rw [hd.rn]; exact List.mem_singleton.mpr rfl)]
  simp only [Fin.val_cast]
  exact val_congr j _ _ _ _ (by simp [hd.lb, hd.ln, hd.rn])

/-- A plain matrix product into a zero accumulator, at (r, c): the sum over the shared axis of the products. -/
theorem matmul_zero_apply (hd : IsPlain d) {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul d prec lhs rhs (constant ⟨2, ![M, N]⟩ .f32 0x00000000#32) (ix2 r c)
      = ∑ k : Fin K, lhs (ix2 r k) * rhs (ix2 k c) := by
  rw [Ideal.matmul_constant_zero_apply,
    ← Equiv.sum_comp (contrEquiv1 d K (contr_rank hd) (contr_size hd)).symm]
  refine Finset.sum_congr rfl fun k _ => ?_
  have hk := contrEquiv1_symm_val d K (contr_rank hd) (contr_size hd) k
  have el : d.lhsIdx (ix2 r c) ((contrEquiv1 d K (contr_rank hd) (contr_size hd)).symm k) = ix2 r k :=
    funext fun a => Fin.ext (by
      match a with
      | ⟨0, _⟩ => exact lhsIdx_row hd _ _
      | ⟨1, _⟩ => exact (d.lhsIdx_val_of_single hd.lc _ _).trans hk)
  have er : d.rhsIdx (ix2 r c) ((contrEquiv1 d K (contr_rank hd) (contr_size hd)).symm k) = ix2 k c :=
    funext fun a => Fin.ext (by
      match a with
      | ⟨0, _⟩ => exact (d.rhsIdx_val_of_single hd.rc _ _).trans hk
      | ⟨1, _⟩ => exact rhsIdx_col hd _ _)
  rw [el, er]

end Plain

/-! ## Reductions along the second axis -/

section Rows

variable {a b : Nat} {φ : FTy}

/-- The index over row `r` with second coordinate `k`. -/
theorem lift_row (h : (⟨2, ![a, b]⟩ : Shape).Reduces [1] ⟨1, ![a]⟩) (r : Fin a) (k : Fin b) :
    h.lift (ix1 r) k = ix2 r k :=
  funext fun c => Fin.ext (by
    show h.liftVal (ix1 r) k.val c = (ix2 r k c).val
    unfold Shape.Reduces.liftVal
    match c with
    | ⟨0, _⟩ => rfl
    | ⟨1, _⟩ => rfl)

/-- A sum along the second axis, at row `r`: the sum of that row. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  rw [Ideal.multiReduction_add_single]
  exact Finset.sum_congr rfl fun k _ => congrArg src (lift_row h r k)

/-- A maximum along the second axis, at row `r`: the fold of `max` over that row from the starting word's value. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  exact congrArg (Finset.fold max _ · _) (funext fun k => congrArg src (lift_row h r k))

end Rows

/-! ## Moving coordinates -/

section Layout

variable {α : Type} {a b : Nat}

/-- A length-`a` vector viewed as an `[a, 1]` column reads, at (i, u), the vector at i. -/
theorem column_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column repeated along a second axis reads, at (i, j), the column at (i, 0). -/
theorem spread_apply (x : (⟨2, ![a, 1]⟩ : Shape).Idx → α) (h : (⟨2, ![a, 1]⟩ : Shape).Broadcasts ⟨2, ![a, b]⟩)
    (i : Fin a) (j : Fin b) : broadcastTo ⟨2, ![a, b]⟩ x h (ix2 i j) = x (ix2 i (0 : Fin 1)) :=
  broadcastTo_apply x h _ _ (fun c => by
    match c with
    | ⟨0, _⟩ =>
      show i.val = if a = 1 then 0 else i.val
      split
      · next h1 => have := i.isLt; omega
      · rfl
    | ⟨1, _⟩ => show 0 = if (1 : Nat) = 1 then 0 else j.val; rw [if_pos rfl])

/-- A transposed `[a, b]` vector reads, at (p, q), the vector at (q, p). -/
theorem swap_apply (x : (⟨2, ![a, b]⟩ : Shape).Idx → α) (h : (⟨2, ![a, b]⟩ : Shape).Transposes [1, 0] ⟨2, ![b, a]⟩)
    (p : Fin b) (q : Fin a) : transpose ⟨2, ![b, a]⟩ [1, 0] x h (ix2 p q) = x (ix2 q p) :=
  transpose_apply [1, 0] x h _ _ (fun c => by
    match c with
    | ⟨0, _⟩ => rfl
    | ⟨1, _⟩ => rfl)

end Layout

end Cert.RowOps

end
-- ==== Proof.LibColOps.lean ====
/-
  More two-dimensional vector operations read at one index, on the extended reals.

  A matrix product that contracts the SECOND axis of both operands, [M, K] against [N, K], is at (r, c) the sum over
  the shared axis of the left operand's row r against the right operand's row c.  A sum along the FIRST axis of an
  [a, b] vector is, at column c, the sum of that column.  An [a, p] vector with two [a, 1] columns appended along the
  second axis reads, at (r, e), the first piece for e < p, the first column at e = p and the second at e = p + 1; a sum
  over the p + 2 positions of such a row therefore splits into the sum over the first p and the two last terms.
-/
import Idealize.ShloMosaic.PureOps.Ideal.Laws
import Idealize.ShloMosaic.Lib.ValueIdx
import Idealize.ShloMosaic.Lib.Pipeline.Value

noncomputable section

namespace Cert.ColOps

open Idealize.ShloMosaic Idealize.ShloMosaic.ValueIdx

/-! ## A matrix product contracting both operands' second axes -/

/-- The dimension numbers of an `[M, K] × [N, K]` product: contract the second axis of each operand, no batch axis. -/
structure IsRowRow {M K N : Nat} (d : DotDims ⟨2, ![M, K]⟩ ⟨2, ![N, K]⟩ ⟨2, ![M, N]⟩) : Prop where
  lc : d.lhsContracting = [1]
  rc : d.rhsContracting = [1]
  ln : d.lhsNonContracting = [0]
  rn : d.rhsNonContracting = [0]
  lb : d.lhsBatch = []
  rb : d.rhsBatch = []

section RowRow

variable {M K N : Nat} {d : DotDims ⟨2, ![M, K]⟩ ⟨2, ![N, K]⟩ ⟨2, ![M, N]⟩}

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq h => by subst h; rfl

theorem contr_rank (hd : IsRowRow d) : d.contr.rank = 1 := by
  rw [d.rank_contr, hd.lc]; rfl

theorem contr_size (hd : IsRowRow d) : d.contr.size ⟨0, by rw [contr_rank hd]; exact Nat.one_pos⟩ = K := by
  rw [d.size_contr 0 (by rw [hd.lc]; exact Nat.one_pos)]
  simp only [hd.lc, List.getElem_cons_zero]
  rfl

/-- The left operand's row coordinate is the result's row coordinate. -/
theorem lhsIdx_row (hd : IsRowRow d) (j : (⟨2, ![M, N]⟩ : Shape).Idx) (k : d.contr.Idx) :
    (d.lhsIdx j k 0).val = (j 0).val := by
  unfold DotDims.lhsIdx
  rw [dif_neg (by rw [hd.lb]; exact List.not_mem_nil), dif_pos (by rw [hd.ln]; exact List.mem_singleton.mpr rfl)]
  simp only [Fin.val_cast]
  exact val_congr j _ _ _ _ (by simp [hd.lb, hd.ln])

/-- The right operand's row coordinate is the result's column coordinate. -/
theorem rhsIdx_row (hd : IsRowRow d) (j : (⟨2, ![M, N]⟩ : Shape).Idx) (k : d.contr.Idx) :
    (d.rhsIdx j k 0).val = (j 1).val := by
  unfold DotDims.rhsIdx
  rw [dif_neg (by rw [hd.rb]; exact List.not_mem_nil), dif_pos (by rw [hd.rn]; exact List.mem_singleton.mpr rfl)]
  simp only [Fin.val_cast]
  exact val_congr j _ _ _ _ (by simp [hd.lb, hd.ln, hd.rn])

/-- Such a product into a zero accumulator, at (r, c): the sum over the shared axis of row r against row c. -/
theorem matmul_zero_apply (hd : IsRowRow d) {φ₁ φ₂ : FTy} (prec : Option ContractPrecision)
    (lhs : FVec Ideal ⟨2, ![M, K]⟩ φ₁) (rhs : FVec Ideal ⟨2, ![N, K]⟩ φ₂) (r : Fin M) (c : Fin N) :
    FloatOps.matmul d prec lhs rhs (constant ⟨2, ![M, N]⟩ .f32 0x00000000#32) (ix2 r c)
      = ∑ k : Fin K, lhs (ix2 r k) * rhs (ix2 c k) := by
  rw [Ideal.matmul_constant_zero_apply,
    ← Equiv.sum_comp (contrEquiv1 d K (contr_rank hd) (contr_size hd)).symm]
  refine Finset.sum_congr rfl fun k _ => ?_
  have hk := contrEquiv1_symm_val d K (contr_rank hd) (contr_size hd) k
  have el : d.lhsIdx (ix2 r c) ((contrEquiv1 d K (contr_rank hd) (contr_size hd)).symm k) = ix2 r k :=
    funext fun a => Fin.ext (by
      match a with
      | ⟨0, _⟩ => exact lhsIdx_row hd _ _
      | ⟨1, _⟩ => exact (d.lhsIdx_val_of_single hd.lc _ _).trans hk)
  have er : d.rhsIdx (ix2 r c) ((contrEquiv1 d K (contr_rank hd) (contr_size hd)).symm k) = ix2 c k :=
    funext fun a => Fin.ext (by
      match a with
      | ⟨0, _⟩ => exact rhsIdx_row hd _ _
      | ⟨1, _⟩ => exact (d.rhsIdx_val_of_single hd.rc _ _).trans hk)
  rw [el, er]

end RowRow

/-! ## A sum along the first axis -/

section Cols

variable {a b : Nat} {φ : FTy}

/-- The index over column `c` with first coordinate `k`. -/
theorem lift_col (h : (⟨2, ![a, b]⟩ : Shape).Reduces [0] ⟨1, ![b]⟩) (c : Fin b) (k : Fin a) :
    h.lift (ix1 c) k = ix2 k c :=
  funext fun x => Fin.ext (by
    show h.liftVal (ix1 c) k.val x = (ix2 k c x).val
    unfold Shape.Reduces.liftVal
    match x with
    | ⟨0, _⟩ => rfl
    | ⟨1, _⟩ => rfl)

/-- A sum along the first axis, at column `c`: the sum of that column. -/
theorem colSum_apply (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (c : Fin b) :
    multiReduction .add [0] ⟨1, ![b]⟩ src acc h hφ hacc (ix1 c) = ∑ k : Fin a, src (ix2 k c) := by
  rw [Ideal.multiReduction_add_single]
  exact Finset.sum_congr rfl fun k _ => congrArg src (lift_col h c k)

end Cols

/-! ## Two columns appended to a matrix -/

section Append

variable {α : Type} {a p q : Nat}

/-- Left of the appended columns the concatenation reads the matrix. -/
theorem append2_left (x : (⟨2, ![a, p]⟩ : Shape).Idx → α) (y z : (⟨2, ![a, 1]⟩ : Shape).Idx → α)
    (h : Shape.Concatenates [⟨2, ![a, p]⟩, ⟨2, ![a, 1]⟩, ⟨2, ![a, 1]⟩] ⟨2, ![a, q]⟩ 1)
    (r : Fin a) (e : Fin q) (he : e.val < p) :
    concatenate ⟨2, ![a, q]⟩ 1 [⟨⟨2, ![a, p]⟩, x⟩, ⟨⟨2, ![a, 1]⟩, y⟩, ⟨⟨2, ![a, 1]⟩, z⟩] h (ix2 r e)
      = x (ix2 r ⟨e.val, he⟩) :=
  concatenate_apply_piece (t := ⟨2, ![a, q]⟩) 1 [⟨⟨2, ![a, p]⟩, x⟩, ⟨⟨2, ![a, 1]⟩, y⟩, ⟨⟨2, ![a, 1]⟩, z⟩] h (ix2 r e) 0 (by simp) ⟨2, ![a, p]⟩ x rfl rfl 0 rfl (ix2 r ⟨e.val, he⟩)
    (fun b hb => by
      match b with
      | ⟨0, _⟩ => rfl
      | ⟨1, _⟩ => exact absurd rfl hb)
    (Nat.zero_add _)

/-- At position `p` it reads the first appended column. -/
theorem append2_mid (x : (⟨2, ![a, p]⟩ : Shape).Idx → α) (y z : (⟨2, ![a, 1]⟩ : Shape).Idx → α)
    (h : Shape.Concatenates [⟨2, ![a, p]⟩, ⟨2, ![a, 1]⟩, ⟨2, ![a, 1]⟩] ⟨2, ![a, q]⟩ 1)
    (r : Fin a) (e : Fin q) (he : e.val = p) :
    concatenate ⟨2, ![a, q]⟩ 1 [⟨⟨2, ![a, p]⟩, x⟩, ⟨⟨2, ![a, 1]⟩, y⟩, ⟨⟨2, ![a, 1]⟩, z⟩] h (ix2 r e)
      = y (ix2 r (0 : Fin 1)) :=
  concatenate_apply_piece (t := ⟨2, ![a, q]⟩) 1 [⟨⟨2, ![a, p]⟩, x⟩, ⟨⟨2, ![a, 1]⟩, y⟩, ⟨⟨2, ![a, 1]⟩, z⟩] h (ix2 r e) 1 (by simp) ⟨2, ![a, 1]⟩ y rfl rfl p (by simp) (ix2 r (0 : Fin 1))
    (fun b hb => by
      match b with
      | ⟨0, _⟩ => rfl
      | ⟨1, _⟩ => exact absurd rfl hb)
    (by show p + 0 = e.val; omega)

/-- At position `p + 1` it reads the second appended column. -/
theorem append2_right (x : (⟨2, ![a, p]⟩ : Shape).Idx → α) (y z : (⟨2, ![a, 1]⟩ : Shape).Idx → α)
    (h : Shape.Concatenates [⟨2, ![a, p]⟩, ⟨2, ![a, 1]⟩, ⟨2, ![a, 1]⟩] ⟨2, ![a, q]⟩ 1)
    (r : Fin a) (e : Fin q) (he : e.val = p + 1) :
    concatenate ⟨2, ![a, q]⟩ 1 [⟨⟨2, ![a, p]⟩, x⟩, ⟨⟨2, ![a, 1]⟩, y⟩, ⟨⟨2, ![a, 1]⟩, z⟩] h (ix2 r e)
      = z (ix2 r (0 : Fin 1)) :=
  concatenate_apply_piece (t := ⟨2, ![a, q]⟩) 1 [⟨⟨2, ![a, p]⟩, x⟩, ⟨⟨2, ![a, 1]⟩, y⟩, ⟨⟨2, ![a, 1]⟩, z⟩] h (ix2 r e) 2 (by simp) ⟨2, ![a, 1]⟩ z rfl rfl (p + 1) (by simp) (ix2 r (0 : Fin 1))
    (fun b hb => by
      match b with
      | ⟨0, _⟩ => rfl
      | ⟨1, _⟩ => exact absurd rfl hb)
    (by show p + 1 + 0 = e.val; omega)

end Append

/-- A sum over `p + 2` positions: the first `p`, then the two last. -/
theorem sum_append2 {M : Type*} [AddCommMonoid M] (p : Nat) (f : Fin (p + 2) → M) :
    ∑ e, f e = ∑ d : Fin p, f ⟨d.val, by omega⟩ + f ⟨p, by omega⟩ + f ⟨p + 1, by omega⟩ := by
  rw [Fin.sum_univ_castSucc, Fin.sum_univ_castSucc]
  rfl

end Cert.ColOps

end
-- ==== Proof.SoftAssign.lean ====
/-
  Soft cluster assignment with a Student-t kernel, two ways, on the extended reals.

  For a sample x and centroids C k (k < K), put u k = 1 + ‖x − C k‖².  One program forms u k as an affine
  expression  Σ_d (C k d · (−2)) · x d + (Σ_d C k d² + 1) · 1 + 1 · Σ_d x d²,  takes t k = 1 / (u k · u k) and returns
  t k · (1 / Σ_k' t k').  The other forms  q k = (1 / (1 + ‖x − C k‖² / 1)) ^ 2 / 2  with a real power and returns
  q k / (0 + Σ_k' q k').  When every entry is a real number both are  (1/u k)² / Σ_k' (1/u k')²:  the affine expression
  is the expanded square, the halves cancel, and every denominator is at least 1 or a positive sum, so no division
  meets zero.  The constants are kept as the float words the programs spell; they denote 0, 1, 2 and −2.
-/
import Idealize.ShloMosaic.PureOps.Ideal

noncomputable section

namespace Cert.SoftAssign

open Idealize.ShloMosaic

/-! ## The four float words -/

theorem word_zero : Ideal.ofBits .f32 0x00000000#32 = ((0 : ℝ) : EReal) := by
  simp [Ideal.ofBits, Ideal.ieee]

theorem word_one : Ideal.ofBits .f32 0x3F800000#32 = ((1 : ℝ) : EReal) := by
  simp [Ideal.ofBits, Ideal.ieee, -EReal.coe_mul]; norm_num

theorem word_two : Ideal.ofBits .f32 0x40000000#32 = ((2 : ℝ) : EReal) := by
  simp [Ideal.ofBits, Ideal.ieee, -EReal.coe_mul]; norm_num

theorem word_neg_two : Ideal.ofBits .f32 0xC0000000#32 = ((-2 : ℝ) : EReal) := by
  simp [Ideal.ofBits, Ideal.ieee, -EReal.coe_mul]; norm_num

/-! ## Real numbers inside the extended reals -/

/-- The coercion of a finite real sum is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A quotient of two reals with a nonzero divisor is the real quotient. -/
theorem div_coe_coe (a : ℝ) {b : ℝ} (hb : b ≠ 0) : Ideal.div (a : EReal) (b : EReal) = ((a / b : ℝ) : EReal) := by
  rw [Ideal.div_coe hb, ← EReal.coe_mul, mul_one_div]

/-- The square as a real power. -/
theorem pow_two_coe (a : ℝ) : Ideal.pow (a : EReal) ((2 : ℝ) : EReal) = ((a ^ 2 : ℝ) : EReal) := by
  rw [Ideal.pow_coe_coe]
  exact congrArg _ (Real.rpow_two a)

/-! ## The two programs' expressions -/

variable {K D : ℕ}

/-- The affine form of 1 + ‖x − c‖². -/
def affine (c x : Fin D → EReal) : EReal :=
  (∑ d, (c d * Ideal.ofBits .f32 0xC0000000#32) * x d)
    + ((∑ d, c d * c d) + Ideal.ofBits .f32 0x3F800000#32) * Ideal.ofBits .f32 0x3F800000#32
    + Ideal.ofBits .f32 0x3F800000#32 * (∑ d, x d * x d)

/-- The reciprocal of its square. -/
def weight (c x : Fin D → EReal) : EReal :=
  Ideal.div (Ideal.ofBits .f32 0x3F800000#32) (affine c x * affine c x)

/-- The first program: the weight times the reciprocal of the weights' sum over the centroids. -/
def normalized (C : Fin K → Fin D → EReal) (x : Fin D → EReal) (k : Fin K) : EReal :=
  weight (C k) x * Ideal.div (Ideal.ofBits .f32 0x3F800000#32) (∑ k', weight (C k') x)

/-- The second program's unnormalized value: (1 / (1 + ‖x − c‖² / 1)) ^ 2 / 2. -/
def halfSquare (c x : Fin D → EReal) : EReal :=
  Ideal.div
    (Ideal.pow
      (Ideal.div (Ideal.ofBits .f32 0x3F800000#32)
        (Ideal.ofBits .f32 0x3F800000#32
          + Ideal.div (Ideal.ofBits .f32 0x00000000#32 + ∑ d, (x d - c d) * (x d - c d))
              (Ideal.ofBits .f32 0x3F800000#32)))
      (Ideal.ofBits .f32 0x40000000#32))
    (Ideal.ofBits .f32 0x40000000#32)

/-- The second program: that value over its sum over the centroids. -/
def quotient (C : Fin K → Fin D → EReal) (x : Fin D → EReal) (k : Fin K) : EReal :=
  Ideal.div (halfSquare (C k) x) (Ideal.ofBits .f32 0x00000000#32 + ∑ k', halfSquare (C k') x)

/-! ## On real entries -/

/-- 1 + ‖x − c‖² as a real number. -/
def onePlusDist (c x : Fin D → ℝ) : ℝ := 1 + ∑ d, (x d - c d) * (x d - c d)

theorem one_le_onePlusDist (c x : Fin D → ℝ) : 1 ≤ onePlusDist c x :=
  le_add_of_nonneg_right (Finset.sum_nonneg fun d _ => mul_self_nonneg _)

theorem onePlusDist_pos (c x : Fin D → ℝ) : 0 < onePlusDist c x :=
  lt_of_lt_of_le one_pos (one_le_onePlusDist c x)

/-- The affine form is the expanded square. -/
theorem affine_coe (c x : Fin D → ℝ) :
    affine (fun d => (c d : EReal)) (fun d => (x d : EReal)) = ((onePlusDist c x : ℝ) : EReal) := by
  unfold affine
  rw [word_one, word_neg_two]
  simp only [← EReal.coe_mul, ← coe_sum, ← EReal.coe_add]
  refine congrArg _ ?_
  unfold onePlusDist
  have e : ∑ d, (x d - c d) * (x d - c d)
      = ∑ d, c d * (-2) * x d + ∑ d, c d * c d + ∑ d, x d * x d := by
    rw [← Finset.sum_add_distrib, ← Finset.sum_add_distrib]
    exact Finset.sum_congr rfl fun d _ => by ring
  rw [e]; ring

theorem weight_coe (c x : Fin D → ℝ) :
    weight (fun d => (c d : EReal)) (fun d => (x d : EReal))
      = ((1 / (onePlusDist c x * onePlusDist c x) : ℝ) : EReal) := by
  unfold weight
  rw [affine_coe, word_one, ← EReal.coe_mul,
    div_coe_coe 1 (mul_ne_zero (onePlusDist_pos c x).ne' (onePlusDist_pos c x).ne')]

theorem halfSquare_coe (c x : Fin D → ℝ) :
    halfSquare (fun d => (c d : EReal)) (fun d => (x d : EReal))
      = ((1 / (onePlusDist c x * onePlusDist c x) / 2 : ℝ) : EReal) := by
  unfold halfSquare
  rw [word_one, word_two, word_zero]
  simp only [← EReal.coe_sub, ← EReal.coe_mul, ← coe_sum, ← EReal.coe_add]
  rw [div_coe_coe _ one_ne_zero, ← EReal.coe_add]
  have h1 : (1 : ℝ) + (0 + ∑ d, (x d - c d) * (x d - c d)) / 1 = onePlusDist c x := by
    unfold onePlusDist; ring
  rw [h1, div_coe_coe 1 (onePlusDist_pos c x).ne', pow_two_coe, div_coe_coe _ two_ne_zero]
  refine congrArg _ ?_
  rw [div_pow, one_pow, sq]

/-- With real entries the two programs agree. -/
theorem normalized_eq_quotient (C : Fin K → Fin D → ℝ) (x : Fin D → ℝ) (k : Fin K) :
    normalized (fun k d => (C k d : EReal)) (fun d => (x d : EReal)) k
      = quotient (fun k d => (C k d : EReal)) (fun d => (x d : EReal)) k := by
  unfold normalized quotient
  simp only [weight_coe, halfSquare_coe]
  rw [word_one, word_zero, ← coe_sum, ← coe_sum, ← EReal.coe_add]
  have hpos : ∀ k', 0 < 1 / (onePlusDist (C k') x * onePlusDist (C k') x) := fun k' =>
    one_div_pos.mpr (mul_pos (onePlusDist_pos _ x) (onePlusDist_pos _ x))
  have hS : 0 < ∑ k', 1 / (onePlusDist (C k') x * onePlusDist (C k') x) :=
    Finset.sum_pos (fun k' _ => hpos k') ⟨k, Finset.mem_univ k⟩
  have hS2 : (0 : ℝ) + ∑ k', 1 / (onePlusDist (C k') x * onePlusDist (C k') x) / 2
      = (∑ k', 1 / (onePlusDist (C k') x * onePlusDist (C k') x)) / 2 := by
    rw [zero_add, Finset.sum_div]
  rw [hS2, div_coe_coe 1 hS.ne', ← EReal.coe_mul, div_coe_coe _ (div_pos hS two_pos).ne']
  refine congrArg _ ?_
  field_simp

end Cert.SoftAssign

end
-- ==== Proof.KernelValue.lean ====
/-
  The kernel body's stored value at the index (k, j) of its [512, 1024] block, on the extended reals.

  The body appends to each centroid row C k (times −2) the entries ‖C k‖² + 1 and 1, and to each sample row x j
  the entries 1 and ‖x j‖², and multiplies the two [·, 66] matrices row against row: entry (k, j) is the affine form of
  1 + ‖x j − C k‖².  It then takes t = 1 / (u · u) entrywise, sums t down each column j (over all 512 centroids, which
  the block holds whole), and stores t times the reciprocal of that column sum, spread over the rows.  Stage by stage
  this is the normalized form of the soft assignment, with centroid rows `fun d => v1 (k, d)` and the sample row
  `fun d => v0 (j, d)`.
-/
import proofs.«115624_g35338990911720_cont_8to1_b_1186_15_alg».proof.Proof.Gen.KernelIdeal.Skeleton
import proofs.«115624_g35338990911720_cont_8to1_b_1186_15_alg».proof.Proof.LibRowOps
import proofs.«115624_g35338990911720_cont_8to1_b_1186_15_alg».proof.Proof.LibColOps
import proofs.«115624_g35338990911720_cont_8to1_b_1186_15_alg».proof.Proof.SoftAssign
import Idealize.ShloMosaic.Lib.ValueLayout

noncomputable section

namespace Cert.KernelIdeal.KernelValue

open Cert.KernelIdeal Cert.KernelIdeal.Gen
open Idealize.ShloMosaic Idealize.ShloMosaic.ValueIdx

/-! ## The body's stages -/

/-- ‖x j‖² for each sample row of the block. -/
def sampleSq (v0 : FVec Ideal S1024x64 .f32) : FVec Ideal S1024 .f32 :=
  multiReduction .add [1] S1024 (mulf v0 v0) 0x00000000#32 reduces_S1024x64_S1024 (.inl rfl) rfl

/-- ‖C k‖² + 1 for each centroid row. -/
def centSqPlusOne (v1 : FVec Ideal S512x64 .f32) : FVec Ideal S512 .f32 :=
  addf (multiReduction .add [1] S512 (mulf v1 v1) 0x00000000#32 reduces_S512x64_S512 (.inl rfl) rfl)
    (broadcast S512 (Scalar.ofBits .f32 0x3F800000#32))

/-- The centroid rows times −2, then ‖C k‖² + 1, then 1. -/
def centAug (v1 : FVec Ideal S512x64 .f32) : FVec Ideal S512x66 .f32 :=
  concatenate S512x66 1
    [⟨S512x64, mulf v1 (broadcast S512x64 (Scalar.ofBits .f32 0xC0000000#32))⟩,
     ⟨S512x1, shapeCast S512x1 (centSqPlusOne v1) shapeCasts_S512_S512x1⟩,
     ⟨S512x1, broadcast S512x1 (Scalar.ofBits .f32 0x3F800000#32)⟩]
    concatenates_S512x64_S512x1_S512x1_S512x66_d1

/-- The sample rows, then 1, then ‖x j‖². -/
def sampleAug (v0 : FVec Ideal S1024x64 .f32) : FVec Ideal S1024x66 .f32 :=
  concatenate S1024x66 1
    [⟨S1024x64, v0⟩,
     ⟨S1024x1, broadcast S1024x1 (Scalar.ofBits .f32 0x3F800000#32)⟩,
     ⟨S1024x1, shapeCast S1024x1 (sampleSq v0) shapeCasts_S1024_S1024x1⟩]
    concatenates_S1024x64_S1024x1_S1024x1_S1024x66_d1

/-- Their product, row against row. -/
def affineMat (v0 : FVec Ideal S1024x64 .f32) (v1 : FVec Ideal S512x64 .f32) : FVec Ideal S512x1024 .f32 :=
  matmul dot_S512x66_S1024x66_S512x1024_1_1_0_0_n_n none (centAug v1) (sampleAug v0) (constant S512x1024 .f32 0x00000000#32)

/-- The reciprocal of its entrywise square. -/
def weightMat (v0 : FVec Ideal S1024x64 .f32) (v1 : FVec Ideal S512x64 .f32) : FVec Ideal S512x1024 .f32 :=
  divf (broadcast S512x1024 (Scalar.ofBits .f32 0x3F800000#32)) (mulf (affineMat v0 v1) (affineMat v0 v1))

/-- Its column sums. -/
def weightSum (v0 : FVec Ideal S1024x64 .f32) (v1 : FVec Ideal S512x64 .f32) : FVec Ideal S1024 .f32 :=
  multiReduction .add [0] S1024 (weightMat v0 v1) 0x00000000#32 reduces_S512x1024_S1024 (.inl rfl) rfl

/-- What the body stores. -/
def stored (v0 : FVec Ideal S1024x64 .f32) (v1 : FVec Ideal S512x64 .f32) : FVec Ideal S512x1024 .f32 :=
  mulf (weightMat v0 v1)
    (broadcastTo S512x1024
      (shapeCast S1x1024 (divf (broadcast S1024 (Scalar.ofBits .f32 0x3F800000#32)) (weightSum v0 v1)) shapeCasts_S1024_S1x1024)
      broadcasts_S1x1024_S512x1024)

/-- The body's one payload is the last stage. -/
theorem pay_eq (v0 : Vec Ideal S1024x64 .f32) (v1 : Vec Ideal S512x64 .f32) : k0_pay1 v0 v1 = stored v0 v1 := rfl

/-! ## Each stage at an index -/

variable (v0 : FVec Ideal S1024x64 .f32) (v1 : FVec Ideal S512x64 .f32)

theorem sampleSq_apply (j : Fin 1024) : sampleSq v0 (ix1 j) = ∑ d : Fin 64, v0 (ix2 j d) * v0 (ix2 j d) :=
  Cert.RowOps.rowSum_apply (mulf v0 v0) _ reduces_S1024x64_S1024 (.inl rfl) rfl j

theorem centSqPlusOne_apply (k : Fin 512) :
    centSqPlusOne v1 (ix1 k) = (∑ d : Fin 64, v1 (ix2 k d) * v1 (ix2 k d)) + Ideal.ofBits .f32 0x3F800000#32 :=
  congrArg (· + Ideal.ofBits .f32 0x3F800000#32)
    (Cert.RowOps.rowSum_apply (mulf v1 v1) _ reduces_S512x64_S512 (.inl rfl) rfl k)

theorem centAug_left (k : Fin 512) (e : Fin 66) (he : e.val < 64) :
    centAug v1 (ix2 k e) = v1 (ix2 k ⟨e.val, he⟩) * Ideal.ofBits .f32 0xC0000000#32 :=
  Cert.ColOps.append2_left _ _ _ concatenates_S512x64_S512x1_S512x1_S512x66_d1 k e he

theorem centAug_mid (k : Fin 512) (e : Fin 66) (he : e.val = 64) :
    centAug v1 (ix2 k e) = (∑ d : Fin 64, v1 (ix2 k d) * v1 (ix2 k d)) + Ideal.ofBits .f32 0x3F800000#32 :=
  (Cert.ColOps.append2_mid _ _ _ concatenates_S512x64_S512x1_S512x1_S512x66_d1 k e he).trans
    ((Cert.RowOps.column_apply _ shapeCasts_S512_S512x1 k 0).trans (centSqPlusOne_apply v1 k))

theorem centAug_right (k : Fin 512) (e : Fin 66) (he : e.val = 64 + 1) :
    centAug v1 (ix2 k e) = Ideal.ofBits .f32 0x3F800000#32 :=
  Cert.ColOps.append2_right _ _ _ concatenates_S512x64_S512x1_S512x1_S512x66_d1 k e he

theorem sampleAug_left (j : Fin 1024) (e : Fin 66) (he : e.val < 64) :
    sampleAug v0 (ix2 j e) = v0 (ix2 j ⟨e.val, he⟩) :=
  Cert.ColOps.append2_left _ _ _ concatenates_S1024x64_S1024x1_S1024x1_S1024x66_d1 j e he

theorem sampleAug_mid (j : Fin 1024) (e : Fin 66) (he : e.val = 64) :
    sampleAug v0 (ix2 j e) = Ideal.ofBits .f32 0x3F800000#32 :=
  Cert.ColOps.append2_mid _ _ _ concatenates_S1024x64_S1024x1_S1024x1_S1024x66_d1 j e he

theorem sampleAug_right (j : Fin 1024) (e : Fin 66) (he : e.val = 64 + 1) :
    sampleAug v0 (ix2 j e) = ∑ d : Fin 64, v0 (ix2 j d) * v0 (ix2 j d) :=
  (Cert.ColOps.append2_right _ _ _ concatenates_S1024x64_S1024x1_S1024x1_S1024x66_d1 j e he).trans
    ((Cert.RowOps.column_apply _ shapeCasts_S1024_S1024x1 j 0).trans (sampleSq_apply v0 j))

/-- The product's entry (k, j) is the affine form of 1 + ‖x j − C k‖²: the 66 positions are the 64 features and
    the two appended ones. -/
theorem affineMat_apply (k : Fin 512) (j : Fin 1024) :
    affineMat v0 v1 (ix2 k j) = Cert.SoftAssign.affine (fun d => v1 (ix2 k d)) (fun d => v0 (ix2 j d)) := by
  have hd : Cert.ColOps.IsRowRow dot_S512x66_S1024x66_S512x1024_1_1_0_0_n_n := ⟨rfl, rfl, rfl, rfl, rfl, rfl⟩
  refine (Cert.ColOps.matmul_zero_apply hd none (centAug v1) (sampleAug v0) k j).trans
    ((Cert.ColOps.sum_append2 64 _).trans ?_)
  unfold Cert.SoftAssign.affine
  refine congrArg₂ (· + ·) (congrArg₂ (· + ·) (Finset.sum_congr rfl fun d _ => ?_) ?_) ?_
  · exact congrArg₂ (· * ·) (centAug_left v1 k _ d.isLt) (sampleAug_left v0 j _ d.isLt)
  · exact congrArg₂ (· * ·) (centAug_mid v1 k _ rfl) (sampleAug_mid v0 j _ rfl)
  · exact congrArg₂ (· * ·) (centAug_right v1 k _ rfl) (sampleAug_right v0 j _ rfl)

theorem weightMat_apply (k : Fin 512) (j : Fin 1024) :
    weightMat v0 v1 (ix2 k j) = Cert.SoftAssign.weight (fun d => v1 (ix2 k d)) (fun d => v0 (ix2 j d)) := by
  unfold Cert.SoftAssign.weight
  rw [← affineMat_apply v0 v1 k j]
  rfl

theorem weightSum_apply (j : Fin 1024) :
    weightSum v0 v1 (ix1 j) = ∑ k' : Fin 512, Cert.SoftAssign.weight (fun d => v1 (ix2 k' d)) (fun d => v0 (ix2 j d)) :=
  (Cert.ColOps.colSum_apply (weightMat v0 v1) _ reduces_S512x1024_S1024 (.inl rfl) rfl j).trans
    (Finset.sum_congr rfl fun k' _ => weightMat_apply v0 v1 k' j)

/-- The stored value at (k, j) is the normalized form of the soft assignment of sample row j. -/
theorem stored_apply (k : Fin 512) (j : Fin 1024) :
    stored v0 v1 (ix2 k j)
      = Cert.SoftAssign.normalized (fun k d => v1 (ix2 k d)) (fun d => v0 (ix2 j d)) k := by
  unfold Cert.SoftAssign.normalized
  refine congrArg₂ (· * ·) (weightMat_apply v0 v1 k j) ?_
  refine (broadcastTo_1b_ab_apply _ broadcasts_S1x1024_S512x1024 k j).trans ?_
  refine (shapeCast_a_1a_apply _ shapeCasts_S1024_S1x1024 0 j).trans ?_
  exact congrArg (Ideal.div (Ideal.ofBits .f32 0x3F800000#32)) (weightSum_apply v0 v1 j)

/-- So is the body's payload. -/
theorem pay_apply (x0 : Vec Ideal S1024x64 .f32) (x1 : Vec Ideal S512x64 .f32) (k : Fin 512) (j : Fin 1024) :
    k0_pay1 x0 x1 (ix2 k j)
      = Cert.SoftAssign.normalized (fun k d => x1 (ix2 k d)) (fun d => x0 (ix2 j d)) k :=
  (congrFun (pay_eq x0 x1) (ix2 k j)).trans (stored_apply x0 x1 k j)

end Cert.KernelIdeal.KernelValue

end
-- ==== Proof.KernelArray.lean ====
/-
  The kernel's result array after the run, as one function of the two argument arrays.

  The grid has two points.  Point t stages rows 1024 t … 1024 t + 1023 of the samples and all 512 centroid rows, and
  writes back columns 1024 t … 1024 t + 1023 of the [512, 2048] result.  The stored value at (k, j) of the block depends
  only on sample row j of the block and on the centroids, so it is the whole-array function `result` at
  (k, 1024 t + j); the two blocks tile the result, so after the run the array is `result` of the arguments.
-/
import proofs.«115624_g35338990911720_cont_8to1_b_1186_15_alg».proof.Proof.Gen.KernelIdeal.Value
import proofs.«115624_g35338990911720_cont_8to1_b_1186_15_alg».proof.Proof.KernelValue
import Idealize.ShloMosaic.Lib.Pipeline.Value

noncomputable section

namespace Cert.KernelIdeal.KernelArray

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The soft assignment of every sample to every centroid, in the normalized form: entry (k, n). -/
def result (a0 : S2048x64.Idx → EReal) (a1 : S512x64.Idx → EReal) : S512x2048.Idx → EReal := fun i =>
  Cert.SoftAssign.normalized (fun k d => a1 (ix2 k d))
    (fun d => a0 (ix2 (⟨(i 1).val, idx2_lt1 i⟩ : Fin 2048) d)) (⟨(i 0).val, idx2_lt0 i⟩ : Fin 512)

theorem result_ix2 (a0 : S2048x64.Idx → EReal) (a1 : S512x64.Idx → EReal) (k : Fin 512) (n : Fin 2048) :
    result a0 a1 (ix2 k n) = Cert.SoftAssign.normalized (fun k d => a1 (ix2 k d)) (fun d => a0 (ix2 n d)) k := rfl

/-- The stored value of a block whose sample rows are rows 1024 q + j of the samples, at an entry of the block, is
    `result` at the matching entry of the array. -/
theorem stored_eq_result (x0 : Vec Ideal S1024x64 .f32) (x1 : Vec Ideal S512x64 .f32)
    (a0 : S2048x64.Idx → EReal) (a1 : S512x64.Idx → EReal) (y : S512x1024.Idx) (i : S512x2048.Idx) (q : Nat)
    (hi0 : (i 0).val = (y 0).val) (hi1 : (i 1).val = q * 1024 + (y 1).val)
    (h0 : ∀ (j : Fin 1024) (d : Fin 64) (n : Fin 2048), n.val = q * 1024 + j.val → x0 (ix2 j d) = a0 (ix2 n d))
    (h1 : ∀ (k : Fin 512) (d : Fin 64), x1 (ix2 k d) = a1 (ix2 k d)) :
    k0_pay1 x0 x1 y = result a0 a1 i := by
  obtain ⟨k, j, rfl⟩ : ∃ (k : Fin 512) (j : Fin 1024), y = ix2 k j := ⟨y 0, y 1, eq_ix2 y⟩
  rw [Cert.KernelIdeal.KernelValue.pay_apply]
  unfold result
  have hk : (⟨(i 0).val, idx2_lt0 i⟩ : Fin 512) = k := Fin.ext hi0
  have e1 : (fun (k : Fin 512) (d : Fin 64) => x1 (ix2 k d)) = fun k d => a1 (ix2 k d) :=
    funext fun k => funext fun d => h1 k d
  have e0 : (fun d : Fin 64 => x0 (ix2 j d)) = fun d => a0 (ix2 (⟨(i 1).val, idx2_lt1 i⟩ : Fin 2048) d) :=
    funext fun d => h0 j d _ hi1
  rw [hk, e1, e0]

theorem hz : (![0, 0] : Fin 2 → Nat) = fun _ => 0 := funext fun a => by fin_cases a <;> rfl

/-- The printed index maps over the two grid points: the samples' block moves down the rows as the result's block
    moves along the columns; the centroids' block and the result's row block stay at 0. -/
theorem idx_facts : ∀ t : Fin cfg0.N, win0_0.index t (0 : Fin 2) = win0_2.index t (1 : Fin 2)
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) ≤ 1 :=
  (by decide +kernel : ∀ t : Fin grid0.N, _)

/-- Each of the two column blocks is some point's. -/
theorem idx_onto : ∀ q : Fin 2, ∃ t : Fin cfg0.N, win0_2.index t = ![0, q.val] :=
  (by decide +kernel : ∀ q : Fin 2, ∃ t : Fin grid0.N, win0_2.index t = ![0, q.val])

/-- What point `t` writes back is block `t` of `result` of the argument arrays. -/
theorem flushed_eq (c : Dev nD) (t : Fin cfg0.N) :
    (dats m 0 c).flushed 2 t
      = ((cfg0.win 2).blk t).view.read (Elt Ideal) (result (V m c main_arg0) (V m c main_arg1)) := by
  rw [flushed2]
  unfold out0_2
  rw [View.canon_unit_zero hz]
  simp only [View.ld_unit_zero (S := S1024x64) hz, View.ld_unit_zero (S := S512x64) hz]
  obtain ⟨e0, e1, e2, e3, e4, e5⟩ := idx_facts t
  funext y
  show k0_pay1 (iblk m c 0 t) (iblk m c 1 t) y
    = result (V m c main_arg0) (V m c main_arg1) (((cfg0.win 2).blk t).view.emb y)
  refine stored_eq_result (iblk m c 0 t) (iblk m c 1 t) (V m c main_arg0) (V m c main_arg1) y
    (((cfg0.win 2).blk t).view.emb y) (win0_2.index t (1 : Fin 2)) ?_ ?_ ?_ ?_
  · show win0_2.index t (0 : Fin 2) * 512 + 1 * (y 0).val = (y 0).val
    omega
  · show win0_2.index t (1 : Fin 2) * 1024 + 1 * (y 1).val = win0_2.index t (1 : Fin 2) * 1024 + (y 1).val
    omega
  · intro j d n hn
    have hidx : ((cfg0.win 0).blk t).view.emb (ix2 j d) = ix2 n d := by
      funext a; apply Fin.ext
      match a with
      | ⟨0, _⟩ => show win0_0.index t (0 : Fin 2) * 1024 + 1 * j.val = n.val; omega
      | ⟨1, _⟩ => show win0_0.index t (1 : Fin 2) * 64 + 1 * d.val = d.val; omega
    show V m c main_arg0 (((cfg0.win 0).blk t).view.emb (ix2 j d)) = V m c main_arg0 (ix2 n d)
    rw [hidx]
  · intro k d
    have hidx : ((cfg0.win 1).blk t).view.emb (ix2 k d) = ix2 k d := by
      funext a; apply Fin.ext
      match a with
      | ⟨0, _⟩ => show win0_1.index t (0 : Fin 2) * 512 + 1 * k.val = k.val; omega
      | ⟨1, _⟩ => show win0_1.index t (1 : Fin 2) * 64 + 1 * d.val = d.val; omega
    show V m c main_arg1 (((cfg0.win 1).blk t).view.emb (ix2 k d)) = V m c main_arg1 (ix2 k d)
    rw [hidx]

/-- An index of the result is in point `t`'s block iff each coordinate is in the block's range on its axis. -/
theorem mem_blk (t : Fin cfg0.N) (i : S512x2048.Idx) :
    i ∈ ((cfg0.win 2).blk t).view.set ↔ ∀ a : Fin 2, win0_2.index t a * S512x1024.size a ≤ (i a).val
      ∧ (i a).val < win0_2.index t a * S512x1024.size a + S512x1024.size a := by
  show i ∈ ((View.whole main_v0).slice (win0_2.rect t)).set ↔ _
  rw [View.set_slice_whole, Rect.mem_set_unit]
  exact Iff.rfl

/-- Every index of the result is in the block of the point that owns its column: column n belongs to point n / 1024. -/
theorem cover (i : S512x2048.Idx) :
    ∃ t : Fin cfg0.N, (cfg0.win 2).flush t = true ∧ i ∈ ((cfg0.win 2).blk t).view.set := by
  have hi0 : (i 0).val < 512 := (i 0).isLt
  have hi1 : (i 1).val < 2048 := (i 1).isLt
  obtain ⟨t, ht⟩ := idx_onto ⟨(i 1).val / 1024, by omega⟩
  have q0 : win0_2.index t (0 : Fin 2) = 0 := congrFun ht 0
  have q1 : win0_2.index t (1 : Fin 2) = (i 1).val / 1024 := congrFun ht 1
  refine ⟨t, flush0_2 t, ?_⟩
  rw [mem_blk]
  intro a
  match a with
  | ⟨0, _⟩ =>
    show win0_2.index t (0 : Fin 2) * 512 ≤ (i 0).val ∧ (i 0).val < win0_2.index t (0 : Fin 2) * 512 + 512
    omega
  | ⟨1, _⟩ =>
    show win0_2.index t (1 : Fin 2) * 1024 ≤ (i 1).val ∧ (i 1).val < win0_2.index t (1 : Fin 2) * 1024 + 1024
    omega

/-- The result array after the run. -/
theorem final (c : Dev nD) :
    (dats m 0 c).arrAt 2 cfg0.N
      = result (m ((c : Thread nD τ).loc main_arg0)) (m ((c : Thread nD τ).loc main_arg1)) :=
  (dats m 0 c).arrAt_eq_of_cover 2 (result (V m c main_arg0) (V m c main_arg1)) (fun t _ => flushed_eq m c t) cover

/-- The run, read: the result array at `result` of the arguments, the arguments unchanged. -/
theorem run : θ_run defs (onTc (τ := τ) (main (F := Ideal))) ⟨m, fun _ => 0, ρ⟩ fun r => ∀ c : Dev nD,
      r.2.mem ((c : Thread nD τ).loc main_v0)
        = result (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.KernelArray

end
-- ==== Proof.RefValue.lean ====
/-
  The reference program's result at the index (k, n), on the extended reals.

  Reading its operations one at a time: the squared difference of sample n and centroid k summed over the 64
  features, one plus that sum over one, the reciprocal, its square as a real power, a half — and, after the transpose,
  that value over its sum over the 512 centroids of sample n.  That is the quotient form of the soft assignment, with
  centroid rows `fun d => x1 (k, d)` and the sample row `fun d => x0 (n, d)`.
-/
import proofs.«115624_g35338990911720_cont_8to1_b_1186_15_alg».proof.Proof.Gen.ReferenceIdeal.Read
import proofs.«115624_g35338990911720_cont_8to1_b_1186_15_alg».proof.Proof.SoftAssign
import Idealize.ShloMosaic.Lib.ValueIdx

noncomputable section

namespace Cert.ReferenceIdeal.RefValue

open Cert.ReferenceIdeal Cert.ReferenceIdeal.Gen Cert.ReferenceIdeal.Read
open Idealize.ShloMosaic Idealize.ShloMosaic.ValueIdx

/-- The sample's entry that the term of the feature sum at (n, k, d) reads. -/
theorem idx_sample (n : Fin 2048) (k : Fin 512) (d : Fin 64) :
    idx_main_v0 (idx_main_v2 (idx_main_v6 (ix2 n k) d)) = ix2 n d :=
  funext fun a => Fin.ext (by match a with | ⟨0, _⟩ => rfl | ⟨1, _⟩ => rfl)

/-- The centroid's entry it reads. -/
theorem idx_centroid (n : Fin 2048) (k : Fin 512) (d : Fin 64) :
    idx_main_v1 (idx_main_v3 (idx_main_v6 (ix2 n k) d)) = ix2 k d :=
  funext fun a => Fin.ext (by match a with | ⟨0, _⟩ => rfl | ⟨1, _⟩ => rfl)

/-- The squared difference at (n, k, d). -/
theorem square_at (x0 : FVec Ideal S2048x64 .f32) (x1 : FVec Ideal S512x64 .f32) (n : Fin 2048) (k : Fin 512) (d : Fin 64) :
    val_main_v5 (F := Ideal) x0 x1 (idx_main_v6 (ix2 n k) d)
      = (x0 (ix2 n d) - x1 (ix2 k d)) * (x0 (ix2 n d) - x1 (ix2 k d)) := by
  rw [val_main_v5_apply, val_main_v4_apply, val_main_v2_apply, val_main_v3_apply, val_main_v0_apply, val_main_v1_apply,
    idx_sample, idx_centroid]
  rfl

/-- The halved square of the reciprocal at (n, k). -/
theorem halfSquare_at (x0 : FVec Ideal S2048x64 .f32) (x1 : FVec Ideal S512x64 .f32) (n : Fin 2048) (k : Fin 512) :
    val_main_v16 (F := Ideal) x0 x1 (ix2 n k)
      = Cert.SoftAssign.halfSquare (fun d => x1 (ix2 k d)) (fun d => x0 (ix2 n d)) := by
  rw [val_main_v16_apply, val_main_v14_apply, val_main_v12_apply, val_main_v10_apply, val_main_v8_apply, val_main_v6_apply]
  simp only [square_at]
  rw [val_main_v7_apply, val_main_v9_apply, val_main_v11_apply, val_main_v13_apply, val_main_v15_apply]
  unfold Cert.SoftAssign.halfSquare
  rfl

/-- The reference's result at (k, n) is the quotient form of the soft assignment. -/
theorem result_at (x0 : FVec Ideal S2048x64 .f32) (x1 : FVec Ideal S512x64 .f32) (k : Fin 512) (n : Fin 2048) :
    val_main_v21 (F := Ideal) x0 x1 (ix2 k n)
      = Cert.SoftAssign.quotient (fun k d => x1 (ix2 k d)) (fun d => x0 (ix2 n d)) k := by
  have e1 : idx_main_v17 (ix2 k n) = ix2 n k :=
    funext fun a => Fin.ext (by match a with | ⟨0, _⟩ => rfl | ⟨1, _⟩ => rfl)
  have e2 : ∀ k' : Fin 512, idx_main_v18 (idx_main_v19 (idx_main_v20 (ix2 k n))) k' = ix2 n k' := fun k' =>
    funext fun a => Fin.ext (by match a with | ⟨0, _⟩ => rfl | ⟨1, _⟩ => rfl)
  rw [val_main_v21_apply, val_main_v17_apply, val_main_v20_apply, val_main_v19_apply, val_main_v18_apply]
  simp only [e1, e2, halfSquare_at]
  unfold Cert.SoftAssign.quotient
  rfl

end Cert.ReferenceIdeal.RefValue

end
-- ==== Proof.Finite.lean ====
/-
  What the precondition says at the ideal values: every entry of both arguments is a real number.

  The precondition is the conjunction of two `all`-reductions of the entrywise test |x| < +∞.  Its value 1 gives the
  test at every entry, and on the extended reals |x| < +∞ fails exactly at the two infinities.
-/
import proofs.«115624_g35338990911720_cont_8to1_b_1186_15_alg».proof.Pre_finite_inputs
import Idealize.ShloMosaic.Lib.ReduceAll
import Idealize.ShloMosaic.Lib.Affine
import Idealize.ShloMosaic.Lib.ValueIdx
import Idealize.ShloMosaic.Lib.Pipeline.Value
import Idealize.ShloMosaic.PureOps.Ideal.Laws

noncomputable section

namespace Cert.FiniteInputs

open Idealize.ShloMosaic Cert.Pre_finite_inputs

/-- An extended real whose absolute value is below +∞ is a real number. -/
theorem real_of_abs_lt_top (x : EReal)
    (h : Ideal.cmp .olt (max x (-x)) (Ideal.ofBits .f32 0x7F800000#32) = 1#1) : ∃ r : ℝ, x = (r : EReal) := by
  have hinf : Ideal.ofBits .f32 0x7F800000#32 = ⊤ := by simp [Ideal.ofBits, Ideal.ieee]
  rw [hinf] at h
  induction x using EReal.rec with
  | bot => simp [Ideal.cmp] at h
  | top => simp [Ideal.cmp] at h
  | coe r => exact ⟨r, rfl⟩

instance : Subsingleton S_.Idx := ⟨fun a b => funext fun d => d.elim0⟩

variable [Facts]

open Facts in
/-- Under the precondition every entry of both arguments is a real number. -/
theorem real_entries (x0 : FVec Ideal S2048x64 .f32) (x1 : FVec Ideal S512x64 .f32)
    (h : fn (F := Ideal) x0 x1 = fun _ => 1#1) :
    (∀ i, ∃ r : ℝ, x0 i = (r : EReal)) ∧ (∀ i, ∃ r : ℝ, x1 i = (r : EReal)) := by
  have h0 := congrFun h ValueIdx.ix0
  dsimp only [fn] at h0
  obtain ⟨ha, hb⟩ := IntOp.andi_eq_one.1 h0
  constructor
  · intro i
    have hi := Host.reduce_andi_all _ _ reducesTo_S2048x64_S_d0_1 h_S_ ValueIdx.ix0 ha i
    have e : (broadcastInDim S2048x64 ![] bcast_S_S2048x64 (constant (F := Ideal) S_ .f32 0x7F800000#32)) i
        = Ideal.ofBits .f32 0x7F800000#32 :=
      broadcastInDim_apply _ bcast_S_S2048x64 _ i ValueIdx.ix0 (fun a => a.elim0)
    refine real_of_abs_lt_top (x0 i) ?_
    rw [← e]
    exact hi
  · intro i
    have hi := Host.reduce_andi_all _ _ reducesTo_S512x64_S_d0_1 h_S_ ValueIdx.ix0 hb i
    have e : (broadcastInDim S512x64 ![] bcast_S_S512x64 (constant (F := Ideal) S_ .f32 0x7F800000#32)) i
        = Ideal.ofBits .f32 0x7F800000#32 :=
      broadcastInDim_apply _ bcast_S_S512x64 _ i ValueIdx.ix0 (fun a => a.elim0)
    refine real_of_abs_lt_top (x1 i) ?_
    rw [← e]
    exact hi

end Cert.FiniteInputs

end
-- ==== Proof.lean ====
/-
  Soft cluster assignment of 2048 samples to 512 centroids (Student-t kernel, one degree of freedom): the kernel
  against its reference, on the extended reals.

  With u(k, n) = 1 + ‖x n − C k‖², the kernel obtains u as one matrix product of augmented operands — centroid rows
  (−2 C k, ‖C k‖² + 1, 1) against sample rows (x n, 1, ‖x n‖²) —, takes t = 1 / (u · u) and stores t(k, n) · (1 / Σ_k' t(k', n)),
  two column blocks of 1024 samples each.  The reference forms the differences x n − C k, sums their squares, takes
  q = (1 / (1 + · / 1)) ^ 2 / 2 and returns q(n, k) / Σ_k' q(n, k'), transposed.  Under the precondition every entry of
  both arguments is a real number; then the matrix product is the expanded square, the halves cancel between numerator
  and normalizer, and no denominator vanishes (u ≥ 1, and the sums are of positive terms), so the two results are
  equal entry by entry.  Finiteness is used: distributing the product over the sum and cancelling fail at the
  infinities.

  The three frames are the generated frame runs (the reference's with its result dropped); the idealization rewrote
  nothing, so what it must preserve is trivial.
-/
import proofs.«115624_g35338990911720_cont_8to1_b_1186_15_alg».proof.Defs
import proofs.«115624_g35338990911720_cont_8to1_b_1186_15_alg».proof.Proof.Gen.Kernel
import proofs.«115624_g35338990911720_cont_8to1_b_1186_15_alg».proof.Proof.Gen.Kernel.Skeleton
import proofs.«115624_g35338990911720_cont_8to1_b_1186_15_alg».proof.Proof.Gen.Kernel.Launch
import proofs.«115624_g35338990911720_cont_8to1_b_1186_15_alg».proof.Proof.Gen.Kernel.Points
import proofs.«115624_g35338990911720_cont_8to1_b_1186_15_alg».proof.Proof.Gen.Kernel.Frame
import proofs.«115624_g35338990911720_cont_8to1_b_1186_15_alg».proof.Proof.Gen.KernelIdeal
import proofs.«115624_g35338990911720_cont_8to1_b_1186_15_alg».proof.Proof.Gen.KernelIdeal.Skeleton
import proofs.«115624_g35338990911720_cont_8to1_b_1186_15_alg».proof.Proof.Gen.KernelIdeal.Launch
import proofs.«115624_g35338990911720_cont_8to1_b_1186_15_alg».proof.Proof.Gen.KernelIdeal.Points
import proofs.«115624_g35338990911720_cont_8to1_b_1186_15_alg».proof.Proof.Gen.KernelIdeal.Frame
import proofs.«115624_g35338990911720_cont_8to1_b_1186_15_alg».proof.Proof.Gen.ReferenceIdeal
import proofs.«115624_g35338990911720_cont_8to1_b_1186_15_alg».proof.Proof.Gen.Pre_finite_inputs
import proofs.«115624_g35338990911720_cont_8to1_b_1186_15_alg».proof.Proof.Gen.KernelIdeal.Value
import proofs.«115624_g35338990911720_cont_8to1_b_1186_15_alg».proof.Proof.Gen.ReferenceIdeal.Run
import proofs.«115624_g35338990911720_cont_8to1_b_1186_15_alg».proof.Proof.Gen.ReferenceIdeal.Read
import Idealize.ShloMosaic.Adequacy
import Idealize.ShloMosaic.Init
import proofs.«115624_g35338990911720_cont_8to1_b_1186_15_alg».proof.Proof.KernelArray
import proofs.«115624_g35338990911720_cont_8to1_b_1186_15_alg».proof.Proof.RefValue
import proofs.«115624_g35338990911720_cont_8to1_b_1186_15_alg».proof.Proof.Finite

noncomputable section

namespace Cert.Proof

open Idealize.ShloMosaic Idealize.SL.Sem Idealize.ShloMosaic.ValueIdx

/-- With real entries the reference's result array is the kernel's: at (k, n) both are the soft assignment of sample
    n to centroid k, in the quotient form and in the normalized form. -/
theorem reference_eq_result (x0 : FVec Ideal Cert.KernelIdeal.S2048x64 .f32) (x1 : FVec Ideal Cert.KernelIdeal.S512x64 .f32)
    (h0 : ∀ i, ∃ r : ℝ, x0 i = (r : EReal)) (h1 : ∀ i, ∃ r : ℝ, x1 i = (r : EReal)) :
    Cert.ReferenceIdeal.Read.val_main_v21 (F := Ideal) x0 x1 = Cert.KernelIdeal.KernelArray.result x0 x1 := by
  choose X hX using h0
  choose C hC using h1
  funext i
  obtain ⟨k, n, rfl⟩ : ∃ (k : Fin 512) (n : Fin 2048), i = ix2 k n := ⟨i 0, i 1, eq_ix2 i⟩
  rw [Cert.ReferenceIdeal.RefValue.result_at, Cert.KernelIdeal.KernelArray.result_ix2]
  have e1 : (fun (k : Fin 512) (d : Fin 64) => x1 (ix2 k d)) = fun k d => ((C (ix2 k d) : ℝ) : EReal) :=
    funext fun k => funext fun d => hC _
  have e0 : (fun d : Fin 64 => x0 (ix2 n d)) = fun d => ((X (ix2 n d) : ℝ) : EReal) :=
    funext fun d => hX _
  rw [e1, e0]
  exact (Cert.SoftAssign.normalized_eq_quotient (fun k d => C (ix2 k d)) (fun d => X (ix2 n d)) k).symm

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the soft-assignment array of the (agreeing, finite) arguments. -/
theorem algebraic : Cert.algebraic_KernelIdeal_ReferenceIdeal := by
  intro m ρ m' ρ' hpre hagree
  refine ⟨fun c => Cert.KernelIdeal.KernelArray.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KernelArray.run m ρ, ?_⟩
  refine (θ_run Cert.ReferenceIdeal.defs _ _).mono (fun _ h c => ⟨(h c).1.trans ?_, (h c).2⟩)
    (Cert.ReferenceIdeal.Value.run (F := Ideal) m' ρ')
  obtain ⟨f0, f1⟩ := Cert.FiniteInputs.real_entries _ _ (hpre c)
  rw [Cert.ReferenceIdeal.Read.val_main_v21_eq, (hagree c).1, (hagree c).2]
  exact reference_eq_result _ _ f0 f1

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
